-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S512x128x512 : S_.BroadcastsInDim S512x128x512 (![] : Fin 0 → Fin S512x128x512.rank)
  reducesTo_S512x128x512_S_d0_1_2 : S512x128x512.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S512x128x512 .f32) (main_arg1 : FVec F S128x1024 .f32) (main_arg2 : FVec F S1024x512 .f32) (main_arg3 : FVec F S1024 .f32) (main_arg4 : FVec F S1024x1024 .f32) (main_arg5 : FVec F S1024 .f32) : IVec S_ 1 :=
  let main_v0 : FVec F S512x128x512 .f32 := Host.absf main_arg0
  let main_cst : FVec F S_ .f32 := constant S_ .f32 0x7F800000#32
  let main_v1 : FVec F S512x128x512 .f32 := broadcastInDim S512x128x512 ![] bcast_S_S512x128x512 main_cst
  let main_v2 : IVec S512x128x512 1 := cmpf .olt main_v0 main_v1
  let main_c : IVec S_ 1 := constantI S_ 1 1#1
  let main_v3 : IVec S_ 1 := (fun x v => Host.reduce IntOp.andi x v reducesTo_S512x128x512_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S_ : Shape := ⟨0, ![]⟩
abbrev S512x128x1024 : Shape := ⟨3, ![512, 128, 1024]⟩
abbrev S16x128x512 : Shape := ⟨3, ![16, 128, 512]⟩
abbrev S16x128x1024 : Shape := ⟨3, ![16, 128, 1024]⟩
abbrev S2048x512 : Shape := ⟨2, ![2048, 512]⟩
abbrev S2048x1024 : Shape := ⟨2, ![2048, 1024]⟩
abbrev S4x128x1024 : Shape := ⟨3, ![4, 128, 1024]⟩
abbrev S1x128x1024 : Shape := ⟨3, ![1, 128, 1024]⟩

abbrev nBuf : Space → Nat
  | .hbm => 22
  | .vmem => 7
  | .smem => 0
  | _ => 0

abbrev bufTy : (tb : Table) → Fin (tcTables nBuf tb) → BufTy
  | .hbm, ⟨0, _⟩ => ⟨S512x128x512, .f32⟩
  | .hbm, ⟨1, _⟩ => ⟨S128x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S1024x1024, .f32⟩
  | .hbm, ⟨9, _⟩ => ⟨S1024x1024, .bf16⟩
  | .hbm, ⟨10, _⟩ => ⟨S128x1024, .bf16⟩
  | .hbm, ⟨11, _⟩ => ⟨S128x1024, .f32⟩
  | .hbm, ⟨12, _⟩ => ⟨S1x1024, .f32⟩
  | .hbm, ⟨13, _⟩ => ⟨S128x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S512x128x1024, .f32⟩
  | .local _ .vmem, ⟨0, _⟩ => ⟨S16x128x512, .f32⟩
  | .local _ .vmem, ⟨1, _⟩ => ⟨S16x128x512, .f32⟩
  | .local _ .vmem, ⟨2, _⟩ => ⟨S512x1024, .bf16⟩
  | .local _ .vmem, ⟨3, _⟩ => ⟨S128x1024, .f32⟩
  | .local _ .vmem, ⟨4, _⟩ => ⟨S128x1024, .f32⟩
  | .local _ .vmem, ⟨5, _⟩ => ⟨S16x128x1024, .f32⟩
  | .local _ .vmem, ⟨6, _⟩ => ⟨S16x128x1024, .f32⟩
  | _, _ => ⟨S512x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x512_S512x1024_1_0 : S1024x512.Transposes [1, 0] S512x1024
  bitsLt_bf16_f32 : FTy.bits .bf16 < FTy.bits .f32
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  inb_S16x128x512_S16x128x512_0_0_0 : ∀ a, (![0, 0, 0] : Fin 3 → Nat) a + S16x128x512.size a ≤ S16x128x512.size a
  h_S16x128x512 : 0 < S16x128x512.numel
  shapeCasts_S16x128x512_S2048x512 : S16x128x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048x1024_S16x128x1024 : S2048x1024.ShapeCasts S16x128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  slices_S16x128x1024_o0_0_0_S4x128x1024 : S16x128x1024.Slices ![0, 0, 0] S4x128x1024
  shapeCasts_S128x1024_S1x128x1024 : S128x1024.ShapeCasts S1x128x1024
  broadcasts_S1x128x1024_S4x128x1024 : S1x128x1024.Broadcasts S4x128x1024
  inb_S16x128x1024_S4x128x1024_0_0_0 : ∀ a, (![0, 0, 0] : Fin 3 → Nat) a + S4x128x1024.size a ≤ S16x128x1024.size a
  h_S4x128x1024 : 0 < S4x128x1024.numel
  slices_S16x128x1024_o4_0_0_S4x128x1024 : S16x128x1024.Slices ![4, 0, 0] S4x128x1024
  inb_S16x128x1024_S4x128x1024_4_0_0 : ∀ a, (![4, 0, 0] : Fin 3 → Nat) a + S4x128x1024.size a ≤ S16x128x1024.size a
  slices_S16x128x1024_o8_0_0_S4x128x1024 : S16x128x1024.Slices ![8, 0, 0] S4x128x1024
  inb_S16x128x1024_S4x128x1024_8_0_0 : ∀ a, (![8, 0, 0] : Fin 3 → Nat) a + S4x128x1024.size a ≤ S16x128x1024.size a
  slices_S16x128x1024_o12_0_0_S4x128x1024 : S16x128x1024.Slices ![12, 0, 0] S4x128x1024
  inb_S16x128x1024_S4x128x1024_12_0_0 : ∀ a, (![12, 0, 0] : Fin 3 → Nat) a + S4x128x1024.size a ≤ S16x128x1024.size a
  dot_S128x1024_S1024x1024_S128x1024_1_0_0_1_n_n_wf : DotDims.WF S128x1024 S1024x1024 S128x1024 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S512x128x512.size a
  hwx0_0 : ∀ i : grid0.Coords, EltTy.bits .f32 = 32 ∨ (Rect.block (s := S512x128x512) S16x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x1024.size a ≤ S512x128x1024.size a
  hwx0_4 : ∀ i : grid0.Coords, EltTy.bits .f32 = 32 ∨ (Rect.block (s := S512x128x1024) S16x128x1024.size (cc0_transform_4 i) (hinb0_4 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x128x512 : Shape := ⟨3, ![512, 128, 512]⟩
abbrev S128x1024 : Shape := ⟨2, ![128, 1024]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S512x128x1024 : Shape := ⟨3, ![512, 128, 1024]⟩
abbrev S1x1x1024 : Shape := ⟨3, ![1, 1, 1024]⟩
abbrev S1x128x1024 : Shape := ⟨3, ![1, 128, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S512x128x512, .f32⟩
  | .hbm, ⟨1, _⟩ => ⟨S128x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S128x1024, .f32⟩
  | .hbm, ⟨8, _⟩ => ⟨S1x1024, .f32⟩
  | .hbm, ⟨9, _⟩ => ⟨S128x1024, .f32⟩
  | .hbm, ⟨10, _⟩ => ⟨S128x1024, .f32⟩
  | .hbm, ⟨11, _⟩ => ⟨S512x128x1024, .f32⟩
  | .hbm, ⟨12, _⟩ => ⟨S1x1x1024, .f32⟩
  | .hbm, ⟨13, _⟩ => ⟨S512x128x1024, .f32⟩
  | .hbm, ⟨14, _⟩ => ⟨S512x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S512x128x1024, .f32⟩
  | .hbm, ⟨21, _⟩ => ⟨S512x128x1024, .f32⟩
  | .hbm, ⟨22, _⟩ => ⟨S_, .f32⟩
  | .hbm, ⟨23, _⟩ => ⟨S512x128x1024, .f32⟩
  | .hbm, ⟨24, _⟩ => ⟨S512x128x1024, .f32⟩
  | .hbm, ⟨25, _⟩ => ⟨S_, .f32⟩
  | .hbm, ⟨26, _⟩ => ⟨S512x128x1024, .f32⟩
  | .hbm, ⟨27, _⟩ => ⟨S512x128x1024, .f32⟩
  | .hbm, ⟨28, _⟩ => ⟨S512x128x1024, .f32⟩
  | .hbm, ⟨29, _⟩ => ⟨S512x128x1024, .f32⟩
  | _, _ => ⟨S512x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S1024_S1x1x1024_2 : S1024.BroadcastsInDim S1x1x1024 (![2] : Fin 1 → Fin S1x1x1024.rank)
  bcast_S1x1x1024_S512x128x1024_0_1_2 : S1x1x1024.BroadcastsInDim S512x128x1024 (![0, 1, 2] : Fin 3 → Fin S512x128x1024.rank)
  bcast_S128x1024_S1x128x1024_1_2 : S128x1024.BroadcastsInDim S1x128x1024 (![1, 2] : Fin 2 → Fin S1x128x1024.rank)
  bcast_S_S1x128x1024 : S_.BroadcastsInDim S1x128x1024 (![] : Fin 0 → Fin S1x128x1024.rank)
  bcast_S1x128x1024_S512x128x1024_0_1_2 : S1x128x1024.BroadcastsInDim S512x128x1024 (![0, 1, 2] : Fin 3 → Fin S512x128x1024.rank)
  bcast_S_S512x128x1024 : S_.BroadcastsInDim S512x128x1024 (![] : Fin 0 → Fin S512x128x1024.rank)
  dot_S128x1024_S1024x1024_S128x1024_1_0_0_1_n_n_wf : DotDims.WF S128x1024 S1024x1024 S128x1024 [1] [0] [0] [1] [] []
  dot_S512x128x512_S1024x512_S512x128x1024_2_1_01_0_n_n_wf : DotDims.WF S512x128x512 S1024x512 S512x128x1024 [2] [1] [0, 1] [0] [] []

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x128x512_S1024x512_S512x128x1024_2_1_01_0_n_n : DotDims S512x128x512 S1024x512 S512x128x1024 where
  lhsContracting := [2]
  rhsContracting := [1]
  lhsNonContracting := [0, 1]
  rhsNonContracting := [0]
  lhsBatch := []
  rhsBatch := []
  wf := dot_S512x128x512_S1024x512_S512x128x1024_2_1_01_0_n_n_wf

class Facts : Prop extends Facts₀ where

variable [Facts]
-- ==== Proof.Spec.lean ====
/-
  One step of a leaky integrator over a batch of sequences, as ONE function of the six argument arrays.

  For a time step `t`, a batch row `b` and a hidden unit `h`:

    drive t b h  = Σ_d x[t, b, d] · W_in[h, d]                      (the input's projection onto unit `h`)
    recur b h    = Σ_k hidden[b, k] · W_h[h, k]                     (the state's projection onto unit `h`)
    bias b h     = (recur b h + b_h[h]) + b_in[h]
    step t b h   = hidden[b, h] · keep + gain · max (drive t b h + bias b h) 0

  with `keep` and `gain` the two f32 words the programs carry (their exact binary values; they are the same words on
  both sides, so nothing here evaluates them). The state `hidden` is not advanced from one time step to the next,
  so the 512 time steps are independent of one another.

  The sums are finite sums on the extended reals; the only law used anywhere below is that addition there is
  commutative and associative, which holds at the infinities too, so no finiteness of the inputs is called on.
-/
import Idealize.ShloMosaic.PureOps.Ideal
import Idealize.ShloMosaic.Lib.ValueIdx

noncomputable section

namespace Cert.Leaky

open Idealize.ShloMosaic Idealize.ShloMosaic.ValueIdx
open scoped BigOperators

/-- The input's projection onto hidden unit `h` at time `t`, batch row `b`. -/
def drive (x : FVec Ideal ⟨3, ![512, 128, 512]⟩ .f32) (Win : FVec Ideal ⟨2, ![1024, 512]⟩ .f32)
    (t : Fin 512) (b : Fin 128) (h : Fin 1024) : EReal :=
  ∑ d : Fin 512, x (ix3 t b d) * Win (ix2 h d)

/-- The state's projection onto hidden unit `h`, batch row `b`. -/
def recur (hid : FVec Ideal ⟨2, ![128, 1024]⟩ .f32) (Wh : FVec Ideal ⟨2, ![1024, 1024]⟩ .f32)
    (b : Fin 128) (h : Fin 1024) : EReal :=
  ∑ k : Fin 1024, hid (ix2 b k) * Wh (ix2 h k)

/-- Everything added to the drive that does not depend on the time step. -/
def bias (hid : FVec Ideal ⟨2, ![128, 1024]⟩ .f32) (Wh : FVec Ideal ⟨2, ![1024, 1024]⟩ .f32)
    (bh bin : FVec Ideal ⟨1, ![1024]⟩ .f32) (b : Fin 128) (h : Fin 1024) : EReal :=
  (recur hid Wh b h + bh (ix1 h)) + bin (ix1 h)

/-- The leaky step at `(t, b, h)`: the kept share of the state plus the gained share of the rectified total drive. -/
def stepAt (x : FVec Ideal ⟨3, ![512, 128, 512]⟩ .f32) (hid : FVec Ideal ⟨2, ![128, 1024]⟩ .f32)
    (Win : FVec Ideal ⟨2, ![1024, 512]⟩ .f32) (bin : FVec Ideal ⟨1, ![1024]⟩ .f32)
    (Wh : FVec Ideal ⟨2, ![1024, 1024]⟩ .f32) (bh : FVec Ideal ⟨1, ![1024]⟩ .f32)
    (t : Fin 512) (b : Fin 128) (h : Fin 1024) : EReal :=
  hid (ix2 b h) * Ideal.ofBits .f32 0x3F666666#32
    + Ideal.ofBits .f32 0x3DCCCCCD#32
      * max (drive x Win t b h + bias hid Wh bh bin b h) (Ideal.ofBits .f32 0x00000000#32)

/-- The whole result array. -/
def step (x : FVec Ideal ⟨3, ![512, 128, 512]⟩ .f32) (hid : FVec Ideal ⟨2, ![128, 1024]⟩ .f32)
    (Win : FVec Ideal ⟨2, ![1024, 512]⟩ .f32) (bin : FVec Ideal ⟨1, ![1024]⟩ .f32)
    (Wh : FVec Ideal ⟨2, ![1024, 1024]⟩ .f32) (bh : FVec Ideal ⟨1, ![1024]⟩ .f32) :
    FVec Ideal ⟨3, ![512, 128, 1024]⟩ .f32 :=
  fun i => stepAt x hid Win bin Wh bh (i 0) (i 1) (i 2)

theorem step_apply (x : FVec Ideal ⟨3, ![512, 128, 512]⟩ .f32) (hid : FVec Ideal ⟨2, ![128, 1024]⟩ .f32)
    (Win : FVec Ideal ⟨2, ![1024, 512]⟩ .f32) (bin : FVec Ideal ⟨1, ![1024]⟩ .f32)
    (Wh : FVec Ideal ⟨2, ![1024, 1024]⟩ .f32) (bh : FVec Ideal ⟨1, ![1024]⟩ .f32)
    (t : Fin 512) (b : Fin 128) (h : Fin 1024) :
    step x hid Win bin Wh bh (ix3 t b h) = stepAt x hid Win bin Wh bh t b h := rfl

/-- The one law between the two programs: the reference adds the input bias to the drive and the recurrent term with its
    bias afterwards; the kernel adds both biases to the recurrent term first. Addition on the extended reals is
    commutative and associative, infinities included. -/
theorem add_regroup (d r bh bin : EReal) : (d + bin) + (r + bh) = d + ((r + bh) + bin) := by
  rw [add_assoc, add_comm bin]

end Cert.Leaky

end
-- ==== Proof.RefSide.lean ====
/-
  The reference computes the leaky step.

  Read one operation at a time and one index at a time, the reference's result at `(t, b, h)` is
  `hidden[b, h] · keep + gain · max ((drive + b_in[h]) + (recur + b_h[h])) 0`: its two products are sums over the contracted
  axis, its broadcasts read their operand at the trailing coordinates, its `relu` is a maximum with the zero word.
  Regrouping the four summands gives the specification.
-/
import proofs.«182187_j50208167690605_2_alg».proof.Proof.Gen.ReferenceIdeal.Read
import proofs.«182187_j50208167690605_2_alg».proof.Proof.Spec

noncomputable section

namespace Cert.Leaky.Ref

open Idealize.ShloMosaic Idealize.ShloMosaic.ValueIdx Cert.ReferenceIdeal Cert.ReferenceIdeal.Read
open scoped BigOperators

/-- The reference's result array is the leaky step of its arguments. -/
theorem result_eq (x0 : FVec Ideal S512x128x512 .f32) (x1 : FVec Ideal S128x1024 .f32) (x2 : FVec Ideal S1024x512 .f32)
    (x3 : FVec Ideal S1024 .f32) (x4 : FVec Ideal S1024x1024 .f32) (x5 : FVec Ideal S1024 .f32) :
    val_main_v19 (F := Ideal) x0 x1 x2 x3 x4 x5 = Cert.Leaky.step x0 x1 x2 x3 x4 x5 := by
  funext i
  obtain ⟨t, b, h, rfl⟩ : ∃ (t : Fin 512) (b : Fin 128) (h : Fin 1024), i = ix3 t b h := ⟨i 0, i 1, i 2, eq_ix3 i⟩
  rw [Cert.Leaky.step_apply]
  -- where each layout operation reads its operand
  have eKeep : idx_main_v9 (idx_main_v18 (ix3 t b h)) = ix2 b h :=
    funext fun a => Fin.ext (by match a with | ⟨0, _⟩ => rfl | ⟨1, _⟩ => rfl)
  have eL5 : ∀ k : Fin 512, lidx_main_v5 (ix3 t b h) k = ix3 t b k := fun k =>
    funext fun a => Fin.ext (by match a with | ⟨0, _⟩ => rfl | ⟨1, _⟩ => rfl | ⟨2, _⟩ => rfl)
  have eR5 : ∀ k : Fin 512, ridx_main_v5 (ix3 t b h) k = ix2 h k := fun k =>
    funext fun a => Fin.ext (by match a with | ⟨0, _⟩ => rfl | ⟨1, _⟩ => rfl)
  have eBin : idx_main_v6 (idx_main_v7 (ix3 t b h)) = ix1 h :=
    funext fun a => Fin.ext (by match a with | ⟨0, _⟩ => rfl)
  have eRow : idx_main_v12 (idx_main_v13 (ix3 t b h)) = ix2 b h :=
    funext fun a => Fin.ext (by match a with | ⟨0, _⟩ => rfl | ⟨1, _⟩ => rfl)
  have eL1 : ∀ k : Fin 1024, lidx_main_v1 (ix2 b h) k = ix2 b k := fun k =>
    funext fun a => Fin.ext (by match a with | ⟨0, _⟩ => rfl | ⟨1, _⟩ => rfl)
  have eR1 : ∀ k : Fin 1024, idx_main_v0 (ridx_main_v1 (ix2 b h) k) = ix2 h k := fun k =>
    funext fun a => Fin.ext (by match a with | ⟨0, _⟩ => rfl | ⟨1, _⟩ => rfl)
  have eBh : idx_main_v2 (idx_main_v3 (ix2 b h)) = ix1 h :=
    funext fun a => Fin.ext (by match a with | ⟨0, _⟩ => rfl)
  rw [val_main_v19_apply, val_main_v18_apply, val_main_v11_apply, val_main_v9_apply, val_main_v10_apply,
    val_main_cst_apply, val_main_v17_apply, val_main_v16_apply, val_main_cst_0_apply, val_main_v15_apply,
    val_main_call0_v0_apply, val_main_call0_cst_apply, val_main_v14_apply, val_main_v8_apply, val_main_v5_apply,
    val_main_v7_apply, val_main_v6_apply, val_main_v13_apply, val_main_v12_apply, val_main_v4_apply, eRow,
    val_main_v1_apply, val_main_v3_apply, val_main_v2_apply, eKeep, eBin, eBh]
  simp only [val_main_v0_apply, eL5, eR5, eL1, eR1, Ideal.addf_def, Ideal.mulf_def, Ideal.maximumf_def, Ideal.ofBits_def]
  unfold Cert.Leaky.stepAt Cert.Leaky.bias Cert.Leaky.drive Cert.Leaky.recur
  rw [Cert.Leaky.add_regroup]

end Cert.Leaky.Ref

end
-- ==== Proof.LibPlainDot.lean ====
/-
  A plain matrix product read at an index.

  The dimension numbers of `[a, K] × [K, b] → [a, b]` — contract the left operand's axis 1 with the right operand's axis 0,
  no batch axis — are those of a kernel's `tpu.matmul` of two matrices and of the host's `dot_general` of two matrices
  alike. On the extended reals either product, read at `(p, q)`, is the sum over `k` of `l (p, k) · r (k, q)` (plus the
  accumulator's entry for the kernel's form); the two lemmas on the operand indices say which entries a contraction
  position reads.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the plain product `[a, K] × [K, b] → [a, b]`, over any witness of their well-formedness. -/
abbrev plainDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem plainDot_lhs_row (i : (⟨2, ![a, b]⟩ : Shape).Idx) (κ : (plainDot wf).contr.Idx) :
    ((plainDot wf).lhsIdx i κ 0).val = (i 0).val := by
  unfold DotDims.lhsIdx
  rw [dif_neg (show ¬(0 : Fin (Shape.rank ⟨2, ![a, K]⟩)) ∈ (plainDot wf).lhsBatch from List.not_mem_nil),
    dif_pos (show (0 : Fin (Shape.rank ⟨2, ![a, K]⟩)) ∈ (plainDot wf).lhsNonContracting from List.mem_singleton.mpr rfl)]
  rfl

/-- and the right operand at the result's column. -/
theorem plainDot_rhs_col (i : (⟨2, ![a, b]⟩ : Shape).Idx) (κ : (plainDot wf).contr.Idx) :
    ((plainDot wf).rhsIdx i κ 1).val = (i 1).val := by
  unfold DotDims.rhsIdx
  rw [dif_neg (show ¬(1 : Fin (Shape.rank ⟨2, ![K, b]⟩)) ∈ (plainDot wf).rhsBatch from List.not_mem_nil),
    dif_pos (show (1 : Fin (Shape.rank ⟨2, ![K, b]⟩)) ∈ (plainDot wf).rhsNonContracting from List.mem_singleton.mpr rfl)]
  rfl

/-- At result index `(p, q)` and contraction position `k` the left operand is read at `(p, k)`. -/
theorem plainDot_lhsIdx (p : Fin a) (q : Fin b) (k : Fin K) :
    (plainDot wf).lhsIdx (ix2 p q) ((contrEquiv1 (plainDot wf) K rfl rfl).symm k) = ix2 p k :=
  funext fun ax => Fin.ext (by
    match ax with
    | ⟨0, _⟩ => exact plainDot_lhs_row wf _ _
    | ⟨1, _⟩ =>
      exact ((plainDot wf).lhsIdx_val_of_single rfl _ _).trans (contrEquiv1_symm_val (plainDot wf) K rfl rfl k))

/-- … and the right operand at `(k, q)`. -/
theorem plainDot_rhsIdx (p : Fin a) (q : Fin b) (k : Fin K) :
    (plainDot wf).rhsIdx (ix2 p q) ((contrEquiv1 (plainDot wf) K rfl rfl).symm k) = ix2 k q :=
  funext fun ax => Fin.ext (by
    match ax with
    | ⟨0, _⟩ =>
      exact ((plainDot wf).rhsIdx_val_of_single rfl _ _).trans (contrEquiv1_symm_val (plainDot wf) K rfl rfl k)
    | ⟨1, _⟩ => exact plainDot_rhs_col wf _ _)

/-- The contraction of a plain product at `(p, q)`, re-indexed by the contracted coordinate. -/
theorem plainDot_sum {φ₁ φ₂ : FTy} (l : FVec Ideal ⟨2, ![a, K]⟩ φ₁) (r : FVec Ideal ⟨2, ![K, b]⟩ φ₂) (p : Fin a) (q : Fin b) :
    (∑ k : (plainDot wf).contr.Idx, l ((plainDot wf).lhsIdx (ix2 p q) k) * r ((plainDot wf).rhsIdx (ix2 p q) k))
      = ∑ k : Fin K, l (ix2 p k) * r (ix2 k q) := by
  rw [← Equiv.sum_comp (contrEquiv1 (plainDot wf) K rfl rfl).symm]
  refine Finset.sum_congr rfl fun k _ => ?_
  rw [plainDot_lhsIdx, plainDot_rhsIdx]

/-- A `tpu.matmul` of two matrices at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (plainDot wf) prec l r acc (ix2 p q) = acc (ix2 p q) + ∑ k : Fin K, l (ix2 p k) * r (ix2 k q) := by
  rw [Ideal.matmul_apply, plainDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (plainDot wf) prec l r (constant ⟨2, ![a, b]⟩ .f32 0x00000000#32) (ix2 p q)
      = ∑ k : Fin K, l (ix2 p k) * r (ix2 k q) := by
  rw [Ideal.matmul_constant_zero_apply, plainDot_sum]

/-- The host's `dot_general` of two matrices at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (plainDot wf) prec sched l r (ix2 p q) = ∑ k : Fin K, l (ix2 p k) * r (ix2 k q) := by
  rw [Ideal.dotGeneral_apply, plainDot_sum]

end Cert.Lib

end
-- ==== Proof.KernelHost.lean ====
/-
  What the kernel's host code prepares before the launch.

  Three of the four arrays the launch reads are computed by the host from the arguments:

    * the input weights transposed, `wT[d, h] = W_in[h, d]` (the change of float format is the identity on the
      extended reals);
    * the time-independent bias, `hb[b, h] = (Σ_k hidden[b, k] · W_h[h, k] + b_h[h]) + b_in[h]`: a plain matrix
      product of the state with the transposed recurrent weights, then the two bias rows broadcast along the batch;
    * the kept share of the state, `kept[b, h] = hidden[b, h] · keep`.

  Each is stated as a function of the argument arrays, read at an index, and identified with the array the launch
  finds.
-/
import proofs.«182187_j50208167690605_2_alg».proof.Proof.Gen.KernelIdeal.Value
import proofs.«182187_j50208167690605_2_alg».proof.Proof.LibPlainDot
import proofs.«182187_j50208167690605_2_alg».proof.Proof.Spec
import Idealize.ShloMosaic.Lib.StableHlo.Run
import Idealize.ShloMosaic.Lib.Pipeline.Value
import Idealize.ShloMosaic.Lib.ValueIdx

noncomputable section

namespace Cert.Leaky.Host

open Cert.KernelIdeal Cert.KernelIdeal.Gen Idealize.ShloMosaic Idealize.ShloMosaic.TcCoe Idealize.SL.Sem
open Idealize.ShloMosaic.ValueIdx
open scoped BigOperators

/-! ## The three arrays as functions of the arguments -/

/-- The input weights, transposed. -/
def weightsT (x2 : FVec Ideal S1024x512 .f32) : FVec Ideal S512x1024 .bf16 :=
  truncf (F := Ideal) .bf16 (transpose S512x1024 [1, 0] x2 transposes_S1024x512_S512x1024_1_0) bitsLt_bf16_f32

/-- The recurrent weights, transposed. -/
def recurT (x4 : FVec Ideal S1024x1024 .f32) : FVec Ideal S1024x1024 .bf16 :=
  truncf (F := Ideal) .bf16 (transpose S1024x1024 [1, 0] x4 transposes_S1024x1024_S1024x1024_1_0) bitsLt_bf16_f32

/-- The time-independent bias: the state's projection, plus the recurrent bias row, plus the input bias row. -/
def biasArr (x1 : FVec Ideal S128x1024 .f32) (x3 : FVec Ideal S1024 .f32) (x4 : FVec Ideal S1024x1024 .f32)
    (x5 : FVec Ideal S1024 .f32) : FVec Ideal S128x1024 .f32 :=
  addf (F := Ideal) (addf (Host.dotGeneral dot_S128x1024_S1024x1024_S128x1024_1_0_0_1_n_n none
        (truncf (F := Ideal) .bf16 x1 bitsLt_bf16_f32) (recurT x4))
      (broadcastInDim S128x1024 ![0, 1] bcast_S1x1024_S128x1024_0_1 (broadcastInDim S1x1024 ![1] bcast_S1024_S1x1024_1 x5)))
    (broadcastInDim S128x1024 ![0, 1] bcast_S1x1024_S128x1024_0_1 (broadcastInDim S1x1024 ![1] bcast_S1024_S1x1024_1 x3))

/-- The kept share of the state. -/
def keptArr (x1 : FVec Ideal S128x1024 .f32) : FVec Ideal S128x1024 .f32 :=
  mulf x1 (broadcastInDim S128x1024 ![] bcast_S_S128x1024 (constant (F := Ideal) S_ .f32 0x3F666666#32))

/-! ## Read at an index -/

theorem weightsT_apply (x2 : FVec Ideal S1024x512 .f32) (d : Fin 512) (h : Fin 1024) :
    weightsT x2 (ix2 d h) = x2 (ix2 h d) := by
  unfold weightsT
  rw [truncf_apply]
  exact transpose_apply [1, 0] x2 transposes_S1024x512_S512x1024_1_0 (ix2 d h) (ix2 h d) (fun b => match b with
    | ⟨0, _⟩ => rfl
    | ⟨1, _⟩ => rfl)

theorem recurT_apply (x4 : FVec Ideal S1024x1024 .f32) (k : Fin 1024) (h : Fin 1024) :
    recurT x4 (ix2 k h) = x4 (ix2 h k) := by
  unfold recurT
  rw [truncf_apply]
  exact transpose_apply [1, 0] x4 transposes_S1024x1024_S1024x1024_1_0 (ix2 k h) (ix2 h k) (fun b => match b with
    | ⟨0, _⟩ => rfl
    | ⟨1, _⟩ => rfl)

/-- A bias row broadcast along the batch, read at `(b, h)`, is the row's entry `h`. -/
theorem biasRow_apply (v : FVec Ideal S1024 .f32) (b : Fin 128) (h : Fin 1024) :
    broadcastInDim S128x1024 ![0, 1] bcast_S1x1024_S128x1024_0_1 (broadcastInDim S1x1024 ![1] bcast_S1024_S1x1024_1 v) (ix2 b h)
      = v (ix1 h) := by
  refine (broadcastInDim_apply _ bcast_S1x1024_S128x1024_0_1 _ (ix2 b h) (ix2 (0 : Fin 1) h) (fun a => match a with
    | ⟨0, _⟩ => by show 0 = if (1 : Nat) = 1 then 0 else b.val; rw [if_pos rfl]
    | ⟨1, _⟩ => by show h.val = if (1024 : Nat) = 1 then 0 else h.val; rw [if_neg (by decide)])).trans ?_
  exact broadcastInDim_apply _ bcast_S1024_S1x1024_1 v (ix2 (0 : Fin 1) h) (ix1 h) (fun a => match a with
    | ⟨0, _⟩ => by show h.val = if (1024 : Nat) = 1 then 0 else h.val; rw [if_neg (by decide)])

theorem biasArr_apply (x1 : FVec Ideal S128x1024 .f32) (x3 : FVec Ideal S1024 .f32) (x4 : FVec Ideal S1024x1024 .f32)
    (x5 : FVec Ideal S1024 .f32) (b : Fin 128) (h : Fin 1024) :
    biasArr x1 x3 x4 x5 (ix2 b h) = Cert.Leaky.bias x1 x4 x5 x3 b h := by
  unfold biasArr Cert.Leaky.bias Cert.Leaky.recur
  rw [addf_apply, addf_apply, biasRow_apply, biasRow_apply]
  have hdot : Host.dotGeneral dot_S128x1024_S1024x1024_S128x1024_1_0_0_1_n_n none
        (truncf (F := Ideal) .bf16 x1 bitsLt_bf16_f32) (recurT x4) (ix2 b h)
      = ∑ k : Fin 1024, (truncf (F := Ideal) .bf16 x1 bitsLt_bf16_f32) (ix2 b k) * recurT x4 (ix2 k h) :=
    Cert.Lib.dotGeneral_plain_apply dot_S128x1024_S1024x1024_S128x1024_1_0_0_1_n_n_wf none .single _ _ b h
  rw [hdot]
  simp only [recurT_apply, truncf_apply]

theorem keptArr_apply (x1 : FVec Ideal S128x1024 .f32) (b : Fin 128) (h : Fin 1024) :
    keptArr x1 (ix2 b h) = x1 (ix2 b h) * Ideal.ofBits .f32 0x3F666666#32 := by
  unfold keptArr
  rw [mulf_apply, broadcastInDim_apply _ bcast_S_S128x1024 _ (ix2 b h) ix0 (fun a => a.elim0), constant_apply]

/-! ## They are the arrays the launch finds -/

variable (m : (ℓ : Loc nD τ sig) → Buf (Elt Ideal) ℓ)

theorem V_weights (c : Dev nD) : (V m c main_v1 : S512x1024.Idx → EReal) = weightsT (m ((c : Thread nD τ).loc main_arg2)) := by
  dsimp only [Gen.V, Gen.hostOps0]
  after_results
  rfl

theorem V_bias (c : Dev nD) : (V m c main_v11 : S128x1024.Idx → EReal)
    = biasArr (m ((c : Thread nD τ).loc main_arg1)) (m ((c : Thread nD τ).loc main_arg3))
        (m ((c : Thread nD τ).loc main_arg4)) (m ((c : Thread nD τ).loc main_arg5)) := by
  dsimp only [Gen.V, Gen.hostOps0]
  after_results
  rfl

theorem V_kept (c : Dev nD) : (V m c main_v13 : S128x1024.Idx → EReal) = keptArr (m ((c : Thread nD τ).loc main_arg1)) := by
  dsimp only [Gen.V, Gen.hostOps0]
  after_results
  rfl

end Cert.Leaky.Host

end
-- ==== Proof.KernelBlock.lean ====
/-
  What one launch point leaves in its output block, read at an index.

  A point works on 16 consecutive time steps. It reshapes its `[16, 128, 512]` input block to `[2048, 512]` rows,
  multiplies by the `[512, 1024]` transposed weights into a zero accumulator, and reshapes the `[2048, 1024]` product
  back to `[16, 128, 1024]`: row `s · 128 + b` of the product is time step `s`, batch row `b`, so at `(s, b, h)` the
  product is `Σ_d x[s, b, d] · wT[d, h]`. The four stores then write, each on its own four time steps,
  `kept[b, h] + gain · max (product[s, b, h] + hb[b, h]) 0`, with the two `[128, 1024]` operands broadcast along time.
-/
import proofs.«182187_j50208167690605_2_alg».proof.Proof.Gen.KernelIdeal.Value
import proofs.«182187_j50208167690605_2_alg».proof.Proof.LibPlainDot
import proofs.«182187_j50208167690605_2_alg».proof.Proof.Spec
import Idealize.ShloMosaic.Lib.Pipeline.Value
import Idealize.ShloMosaic.Lib.ValueIdx

noncomputable section

namespace Cert.Leaky.Block

open Cert.KernelIdeal Cert.KernelIdeal.Gen Idealize.ShloMosaic Idealize.ShloMosaic.TcCoe Idealize.SL.Sem
open Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The block's matrix product, after its reshape back to `[16, 128, 1024]`, at time step `s`, batch row `b`, unit `h`:
    row `s · 128 + b` of the flattened input against column `h` of the weights. -/
theorem product_apply (P1 : FVec Ideal S16x128x512 .f32) (P2 : FVec Ideal S512x1024 .bf16)
    (s : Fin 16) (b : Fin 128) (h : Fin 1024) :
    k0_pay3 (F := Ideal) P1 P2 (ix3 s b h) = ∑ d : Fin 512, P1 (ix3 s b d) * P2 (ix2 d h) := by
  have hr : s.val * 128 + b.val < 2048 := by have := s.isLt; have := b.isLt; omega
  unfold k0_pay3
  refine (shapeCast_apply _ shapeCasts_S2048x1024_S16x128x1024 (ix3 s b h) (ix2 (⟨s.val * 128 + b.val, hr⟩ : Fin 2048) h)
    (by rw [Shape.rowMajor_val_two, Shape.rowMajor_val_three]; rfl)).trans ?_
  refine (Cert.Lib.matmul_plain_zero_apply dot_S2048x512_S512x1024_S2048x1024_1_0_0_1_n_n_wf none _ _
    (⟨s.val * 128 + b.val, hr⟩ : Fin 2048) h).trans ?_
  refine Finset.sum_congr rfl fun d _ => ?_
  rw [shapeCast_self, truncf_apply]
  congr 1
  exact shapeCast_apply P1 shapeCasts_S16x128x512_S2048x512 (ix2 (⟨s.val * 128 + b.val, hr⟩ : Fin 2048) d) (ix3 s b d)
    (by rw [Shape.rowMajor_val_two, Shape.rowMajor_val_three]; rfl)

/-- What the four stores leave in the block, at `(s, b, h)`: the kept share plus the gained share of the rectified
    sum of the product and the bias. `X0 … X3` are the point's four input blocks in operand order. -/
theorem out_apply (X0 : FVec Ideal S16x128x512 .f32) (X1 : FVec Ideal S512x1024 .bf16) (X2 X3 : FVec Ideal S128x1024 .f32)
    (s : Fin 16) (b : Fin 128) (h : Fin 1024) :
    out0_4 (F := Ideal) X0 X1 X2 X3 (ix3 s b h)
      = X3 (ix2 b h) + Ideal.ofBits .f32 0x3DCCCCCD#32
          * max ((∑ d : Fin 512, X0 (ix3 s b d) * X1 (ix2 d h)) + X2 (ix2 b h)) (Ideal.ofBits .f32 0x00000000#32) := by
  unfold out0_4
  simp only [View.ld_unit_zero (S := S16x128x512) hz3, View.ld_unit_zero (S := S512x1024) hz2,
    View.ld_unit_zero (S := S128x1024) hz2]
  rw [Cert.KernelIdeal.Value.canon4_eq]
  have e0 : Cert.KernelIdeal.Value.ix4_0 (ix3 s b h) = ix2 b h :=
    funext fun a => Fin.ext (by match a with | ⟨0, _⟩ => rfl | ⟨1, _⟩ => rfl)
  have e1 : Cert.KernelIdeal.Value.ix4_1 (ix3 s b h) = ix3 s b h :=
    funext fun a => Fin.ext (by match a with | ⟨0, _⟩ => rfl | ⟨1, _⟩ => rfl | ⟨2, _⟩ => rfl)
  have e2 : Cert.KernelIdeal.Value.ix4_2 (ix3 s b h) = ix2 b h :=
    funext fun a => Fin.ext (by match a with | ⟨0, _⟩ => rfl | ⟨1, _⟩ => rfl)
  show FloatOps.addf (F := Ideal) (X3 (Cert.KernelIdeal.Value.ix4_0 (ix3 s b h)))
      (FloatOps.mulf (F := Ideal) (Scalar.ofBits .f32 0x3DCCCCCD#32)
        (FloatOps.maximumf (F := Ideal) (FloatOps.addf (F := Ideal) ((k0_pay3 (F := Ideal) X0 X1) (Cert.KernelIdeal.Value.ix4_1 (ix3 s b h)))
          (X2 (Cert.KernelIdeal.Value.ix4_2 (ix3 s b h)))) (Scalar.ofBits .f32 0x00000000#32))) = _
  rw [e0, e1, e2, product_apply]
  rfl

/-- A point whose input rows are time step `T`'s rows of `x`, whose weights are the transposed input weights, whose bias
    operand is the time-independent bias and whose kept operand is the kept share of the state, writes the leaky step
    of time step `T` at `(s, b, h)`. -/
theorem point_eq (X0 : FVec Ideal S16x128x512 .f32) (X1 : FVec Ideal S512x1024 .bf16) (X2 X3 : FVec Ideal S128x1024 .f32)
    (x : FVec Ideal S512x128x512 .f32) (hid : FVec Ideal S128x1024 .f32) (Win : FVec Ideal S1024x512 .f32)
    (bin : FVec Ideal S1024 .f32) (Wh : FVec Ideal S1024x1024 .f32) (bh : FVec Ideal S1024 .f32)
    (T : Fin 512) (s : Fin 16) (b : Fin 128) (h : Fin 1024)
    (h0 : ∀ d : Fin 512, X0 (ix3 s b d) = x (ix3 T b d))
    (h1 : ∀ d : Fin 512, X1 (ix2 d h) = Win (ix2 h d))
    (h2 : X2 (ix2 b h) = Cert.Leaky.bias hid Wh bh bin b h)
    (h3 : X3 (ix2 b h) = hid (ix2 b h) * Ideal.ofBits .f32 0x3F666666#32) :
    out0_4 (F := Ideal) X0 X1 X2 X3 (ix3 s b h) = Cert.Leaky.stepAt x hid Win bin Wh bh T b h := by
  rw [out_apply, h2, h3]
  unfold Cert.Leaky.stepAt Cert.Leaky.drive
  simp only [h0, h1]

end Cert.Leaky.Block

end
-- ==== Proof.KernelArray.lean ====
/-
  The kernel's result array is the leaky step of its arguments.

  Launch point `t` owns time steps `16·t … 16·t + 15`: its input block is those rows of `x`, its other three operands
  are whole arrays (the same at every point), and its output block is those rows of the result. What it writes back
  at `(s, b, h)` is therefore the specification at time step `16·t + s`: the block's product is the drive of that time
  step, the bias and kept operands are the host's arrays read at `(b, h)`. The 32 blocks tile the 512 time steps, so
  after the run the whole array is the specification.
-/
import proofs.«182187_j50208167690605_2_alg».proof.Proof.KernelHost
import proofs.«182187_j50208167690605_2_alg».proof.Proof.KernelBlock

noncomputable section

namespace Cert.Leaky.Kernel

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The leaky step of the argument arrays as launched on device `c`. -/
abbrev spec (c : Dev nD) : FVec Ideal S512x128x1024 .f32 :=
  Cert.Leaky.step (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The printed index maps over the 32 points: the input block moves with the output block along time; every other
    block index is zero. -/
theorem idx_facts : ∀ t : Fin cfg0.N,
    win0_0.index t (0 : Fin 3) = win0_4.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 32 ∧ win0_4.index t (1 : Fin 3) = 0 ∧ win0_4.index t (2 : Fin 3) = 0 :=
  (by decide +kernel : ∀ t : Fin grid0.N, _)

/-- Every one of the 32 time tiles is some point's. -/
theorem idx_onto : ∀ q : Fin 32, ∃ t : Fin cfg0.N, win0_4.index t = ![q.val, 0, 0] :=
  (by decide +kernel : ∀ q : Fin 32, ∃ t : Fin grid0.N, win0_4.index t = ![q.val, 0, 0])

/-- WHAT POINT `t` WRITES BACK is block `t` of the specification. -/
theorem flushed_eq (c : Dev nD) (t : Fin cfg0.N) :
    (dats m 0 c).flushed 4 t = ((cfg0.win 4).blk t).view.read (Elt Ideal) (spec m c) := by
  rw [Cert.KernelIdeal.Value.flushed4]
  obtain ⟨f00, f01, f02, f10, f11, f20, f21, f30, f31, f4lt, f41, f42⟩ := idx_facts t
  refine funext fun (y : S16x128x1024.Idx) => ?_
  obtain ⟨s, b, h, rfl⟩ : ∃ (s : Fin 16) (b : Fin 128) (h : Fin 1024), y = ix3 s b h := ⟨y 0, y 1, y 2, eq_ix3 y⟩
  have hs : s.val < 16 := s.isLt
  have hb : b.val < 128 := b.isLt
  have hh : h.val < 1024 := h.isLt
  have hT : win0_4.index t (0 : Fin 3) * 16 + s.val < 512 := by omega
  show out0_4 (F := Ideal) (iblk m c 0 t) (iblk m c 1 t) (iblk m c 2 t) (iblk m c 3 t) (ix3 s b h)
    = spec m c (((cfg0.win 4).blk t).view.emb (ix3 s b h : S16x128x1024.Idx))
  refine (Cert.Leaky.Block.point_eq (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨win0_4.index t (0 : Fin 3) * 16 + s.val, hT⟩ : Fin 512) s b h (fun d => ?_) (fun d => ?_) ?_ ?_).trans ?_
  · -- the block's rows are rows `16·t + s` of `x`
    have hd : d.val < 512 := d.isLt
    show V m c main_arg0 (((cfg0.win 0).blk t).view.emb (ix3 s b d : S16x128x512.Idx)) = _
    have e0 : ((cfg0.win 0).blk t).view.emb (ix3 s b d : S16x128x512.Idx)
        = ix3 (⟨win0_4.index t (0 : Fin 3) * 16 + s.val, hT⟩ : Fin 512) b d := by
      funext a; apply Fin.ext
      match a with
      | ⟨0, _⟩ => show win0_0.index t (0 : Fin 3) * 16 + 1 * s.val = win0_4.index t (0 : Fin 3) * 16 + s.val; omega
      | ⟨1, _⟩ => show win0_0.index t (1 : Fin 3) * 128 + 1 * b.val = b.val; omega
      | ⟨2, _⟩ => show win0_0.index t (2 : Fin 3) * 512 + 1 * d.val = d.val; omega
    rw [e0, V_main_arg0]
  · -- the weights block is the whole transposed weight array
    have hd : d.val < 512 := d.isLt
    show V m c main_v1 (((cfg0.win 1).blk t).view.emb (ix2 d h : S512x1024.Idx)) = _
    have e1 : ((cfg0.win 1).blk t).view.emb (ix2 d h : S512x1024.Idx) = ix2 d h := by
      funext a; apply Fin.ext
      match a with
      | ⟨0, _⟩ => show win0_1.index t (0 : Fin 2) * 512 + 1 * d.val = d.val; omega
      | ⟨1, _⟩ => show win0_1.index t (1 : Fin 2) * 1024 + 1 * h.val = h.val; omega
    rw [e1, Cert.Leaky.Host.V_weights, Cert.Leaky.Host.weightsT_apply]
  · -- the bias block is the whole bias array
    show V m c main_v11 (((cfg0.win 2).blk t).view.emb (ix2 b h : S128x1024.Idx)) = _
    have e2 : ((cfg0.win 2).blk t).view.emb (ix2 b h : S128x1024.Idx) = ix2 b h := by
      funext a; apply Fin.ext
      match a with
      | ⟨0, _⟩ => show win0_2.index t (0 : Fin 2) * 128 + 1 * b.val = b.val; omega
      | ⟨1, _⟩ => show win0_2.index t (1 : Fin 2) * 1024 + 1 * h.val = h.val; omega
    rw [e2, Cert.Leaky.Host.V_bias, Cert.Leaky.Host.biasArr_apply]
  · -- the kept block is the whole kept array
    show V m c main_v13 (((cfg0.win 3).blk t).view.emb (ix2 b h : S128x1024.Idx)) = _
    have e3 : ((cfg0.win 3).blk t).view.emb (ix2 b h : S128x1024.Idx) = ix2 b h := by
      funext a; apply Fin.ext
      match a with
      | ⟨0, _⟩ => show win0_3.index t (0 : Fin 2) * 128 + 1 * b.val = b.val; omega
      | ⟨1, _⟩ => show win0_3.index t (1 : Fin 2) * 1024 + 1 * h.val = h.val; omega
    rw [e3, Cert.Leaky.Host.V_kept, Cert.Leaky.Host.keptArr_apply]
  · -- and the output element sits at time step `16·t + s` of the result array
    have e4 : ((cfg0.win 4).blk t).view.emb (ix3 s b h : S16x128x1024.Idx)
        = ix3 (⟨win0_4.index t (0 : Fin 3) * 16 + s.val, hT⟩ : Fin 512) b h := by
      funext a; apply Fin.ext
      match a with
      | ⟨0, _⟩ => show win0_4.index t (0 : Fin 3) * 16 + 1 * s.val = win0_4.index t (0 : Fin 3) * 16 + s.val; omega
      | ⟨1, _⟩ => show win0_4.index t (1 : Fin 3) * 128 + 1 * b.val = b.val; omega
      | ⟨2, _⟩ => show win0_4.index t (2 : Fin 3) * 1024 + 1 * h.val = h.val; omega
    rw [e4]
    rfl

/-- An index of the result array is in point `t`'s block iff each coordinate is in the block's range on its axis. -/
theorem mem_blk (t : Fin cfg0.N) (i : S512x128x1024.Idx) :
    i ∈ ((cfg0.win 4).blk t).view.set ↔ ∀ a : Fin 3, win0_4.index t a * S16x128x1024.size a ≤ (i a).val
      ∧ (i a).val < win0_4.index t a * S16x128x1024.size a + S16x128x1024.size a := by
  show i ∈ ((View.whole main_v14).slice (win0_4.rect t)).set ↔ _
  rw [View.set_slice_whole, Rect.mem_set_unit]
  exact Iff.rfl

/-- The 32 output blocks tile the result array: time step `i 0` is in tile `i 0 / 16`. -/
theorem cover (i : S512x128x1024.Idx) :
    ∃ t : Fin cfg0.N, (cfg0.win 4).flush t = true ∧ i ∈ ((cfg0.win 4).blk t).view.set := by
  have hi0 : (i 0).val < 512 := (i 0).isLt
  have hi1 : (i 1).val < 128 := (i 1).isLt
  have hi2 : (i 2).val < 1024 := (i 2).isLt
  obtain ⟨t, ht⟩ := idx_onto ⟨(i 0).val / 16, by omega⟩
  have q0 : win0_4.index t (0 : Fin 3) = (i 0).val / 16 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- THE RESULT ARRAY after the run is the leaky step of the arguments. -/
theorem final (c : Dev nD) : (dats m 0 c).arrAt 4 cfg0.N = spec m c :=
  (dats m 0 c).arrAt_eq_of_cover 4 (spec m c) (fun t _ => flushed_eq m c t) cover

/-- The kernel's run: it terminates, the result array holds the leaky step, the arguments are unchanged. -/
theorem run : θ_run defs (onTc (τ := τ) (main (F := Ideal))) ⟨m, fun _ => 0, ρ⟩ fun r => ∀ c : Dev nD,
      r.2.mem ((c : Thread nD τ).loc main_v14) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Leaky.Kernel

end
-- ==== Proof.lean ====
/-
  A leaky-integrator step over 512 independent time steps, as a tiled kernel and as plain array code: the two agree on
  the extended reals.

  The kernel prepares on the host the transposed input weights, the time-independent bias
  `(hidden · W_hᵀ + b_h) + b_in` and the kept share `hidden · keep`, then launches 32 points, each computing 16 time
  steps: one matrix product of the point's input rows with the weights, the bias added, rectified, scaled by `gain`,
  and the kept share added. The reference computes `hidden · keep + gain · relu ((x · W_inᵀ + b_in) + (hidden · W_hᵀ + b_h))`
  in one piece. Both are the function `Cert.Leaky.step` of the six arguments (Proof/Spec.lean):

    * the reference, operation by operation and index by index (Proof/RefSide.lean);
    * the kernel, from what each point writes back (Proof/KernelBlock.lean: the product through the two reshapes, the
      four stores), what the host prepared (Proof/KernelHost.lean), and the 32 blocks tiling the result
      (Proof/KernelArray.lean).

  The two sides differ only in how the four summands inside the rectifier are grouped; addition on the extended reals
  is commutative and associative at the infinities too, so the inputs' finiteness is never used. The second result is
  the state argument itself, unchanged on both sides.
-/
import proofs.«182187_j50208167690605_2_alg».proof.Defs
import proofs.«182187_j50208167690605_2_alg».proof.Proof.Gen.Kernel
import proofs.«182187_j50208167690605_2_alg».proof.Proof.Gen.Kernel.Skeleton
import proofs.«182187_j50208167690605_2_alg».proof.Proof.Gen.Kernel.Launch
import proofs.«182187_j50208167690605_2_alg».proof.Proof.Gen.Kernel.Points
import proofs.«182187_j50208167690605_2_alg».proof.Proof.Gen.Kernel.Frame
import proofs.«182187_j50208167690605_2_alg».proof.Proof.Gen.KernelIdeal
import proofs.«182187_j50208167690605_2_alg».proof.Proof.Gen.KernelIdeal.Skeleton
import proofs.«182187_j50208167690605_2_alg».proof.Proof.Gen.KernelIdeal.Launch
import proofs.«182187_j50208167690605_2_alg».proof.Proof.Gen.KernelIdeal.Points
import proofs.«182187_j50208167690605_2_alg».proof.Proof.Gen.KernelIdeal.Frame
import proofs.«182187_j50208167690605_2_alg».proof.Proof.Gen.ReferenceIdeal
import proofs.«182187_j50208167690605_2_alg».proof.Proof.Gen.Pre_finite_inputs
import proofs.«182187_j50208167690605_2_alg».proof.Proof.Gen.KernelIdeal.Value
import proofs.«182187_j50208167690605_2_alg».proof.Proof.Gen.ReferenceIdeal.Run
import proofs.«182187_j50208167690605_2_alg».proof.Proof.Gen.ReferenceIdeal.Read
import proofs.«182187_j50208167690605_2_alg».proof.Proof.RefSide
import proofs.«182187_j50208167690605_2_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the leaky step of the (agreeing) arguments as first result and the state argument as second. -/
theorem algebraic : Cert.algebraic_KernelIdeal_ReferenceIdeal := by
  intro m ρ m' ρ' _ hagree
  refine ⟨fun c => Cert.Leaky.Kernel.spec m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.Leaky.Kernel.run m ρ)
    obtain ⟨h14, h0, h1, h2, h3, h4, h5⟩ := h c
    exact ⟨h14, h1, h0, h1, h2, h3, h4, h5⟩
  · refine (θ_run Cert.ReferenceIdeal.defs _ _).mono (fun r h c => ⟨(h c).1.trans ?_, (h c).2.1.trans (hagree c).2.1, (h c).2.2⟩)
      (Cert.ReferenceIdeal.Value.run (F := Ideal) m' ρ')
    rw [Cert.ReferenceIdeal.Read.val_main_v19_eq, Cert.Leaky.Ref.result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
